-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 126
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1x1600000, .i32⟩
  | .hbm, ⟨67, _⟩ => ⟨S1600000, .i32⟩
  | .hbm, ⟨68, _⟩ => ⟨S100000, .i32⟩
  | .hbm, ⟨69, _⟩ => ⟨S1700000, .i32⟩
  | .hbm, ⟨70, _⟩ => ⟨S1x1600000, .i32⟩
  | .hbm, ⟨71, _⟩ => ⟨S1600000, .i32⟩
  | .hbm, ⟨72, _⟩ => ⟨S100000, .i32⟩
  | .hbm, ⟨73, _⟩ => ⟨S1700000, .i32⟩
  | .hbm, ⟨74, _⟩ => ⟨S_, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S100000x64, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x1, .f32⟩
  | .hbm, ⟨118, _⟩ => ⟨S1700000x64, .f32⟩
  | .hbm, ⟨119, _⟩ => ⟨S1700000x64, .f32⟩
  | .hbm, ⟨120, _⟩ => ⟨S_, .f32⟩
  | .hbm, ⟨121, _⟩ => ⟨S100000x64, .f32⟩
  | .hbm, ⟨122, _⟩ => ⟨S1700000x1, .i32⟩
  | .hbm, ⟨123, _⟩ => ⟨S100000x64, .f32⟩
  | .hbm, ⟨124, _⟩ => ⟨S1x64, .f32⟩
  | .hbm, ⟨125, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_c_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S100000, .i32⟩
  | 9 => ⟨S1700000, .i32⟩
  | 10 => ⟨S1x1600000, .i32⟩
  | 11 => ⟨S1600000, .i32⟩
  | 12 => ⟨S100000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x1600000, .i32⟩
  | 71 => ⟨S1600000, .i32⟩
  | 72 => ⟨S100000, .i32⟩
  | 73 => ⟨S1700000, .i32⟩
  | 74 => ⟨S1x1600000, .i32⟩
  | 75 => ⟨S1600000, .i32⟩
  | 76 => ⟨S100000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibGraphLayer.lean ====
/-
  The three dense stages of a two-layer graph convolution, as functions of whole arrays on the extended reals, and
  the fact that lets a node-tiled program compute them: each stage treats the rows of its matrix operand
  independently, so running it on a block of rows gives that block of rows of the result.

    dense X W      = X·W                                   (entry (r,q): Σ_k X(r,k)·W(k,q))
    biasPrelu X b a = prelu_a (X + b)                      (entry (r,q): v ≥ 0 ? v : a·v with v = X(r,q) + b(q))
    biasAdd X b    = X + b                                 (entry (r,q): X(r,q) + b(q))

  The bias is a vector along the columns and the slope a one-element vector. A block of rows is given by any map
  `row` from the block's row numbers to the matrix's. Nothing of real arithmetic is used (the product needs only
  0 + x = x), so every statement holds at the infinities too; a change of float format is the identity here.
-/
import Idealize.ShloMosaic.Lib.ValueIdx
import Idealize.ShloMosaic.Lib.ValueLayout
import Idealize.ShloMosaic.Lib.Pipeline.Value
import Idealize.ShloMosaic.PureOps.Ideal.Laws
import proofs.«140973_j51015621542485_1_alg».proof.Proof.LibRowBlockDot

noncomputable section

namespace Cert.GraphLayer

open Idealize.ShloMosaic Idealize.ShloMosaic.ValueIdx

variable {M m K N : Nat}

/-- The product of whole matrices. -/
def dense (X : FVec Ideal ⟨2, ![M, K]⟩ .f32) (W : FVec Ideal ⟨2, ![K, N]⟩ .f32) : FVec Ideal ⟨2, ![M, N]⟩ .f32 :=
  Host.dotGeneral (DotDims.plain M K N) none X W

/-- One entry of bias-then-PReLU: v ≥ 0 ? v : a·v. -/
def prelu1 (a v : Ideal .f32) : Ideal .f32 :=
  Scalar.select (FloatOps.cmpf .oge v (Scalar.ofBits (F := Ideal) .f32 0x00000000#32)) v (a * v)

/-- Bias along the columns, then PReLU with the one slope `a`. -/
def biasPrelu (X : FVec Ideal ⟨2, ![M, N]⟩ .f32) (b : FVec Ideal ⟨1, ![N]⟩ .f32) (a : FVec Ideal ⟨1, ![1]⟩ .f32) :
    FVec Ideal ⟨2, ![M, N]⟩ .f32 :=
  fun i => prelu1 (a (ix1 (0 : Fin 1))) (X i + b (ix1 ⟨(i 1).val, (i 1).isLt⟩))

/-- Bias along the columns. -/
def biasAdd (X : FVec Ideal ⟨2, ![M, N]⟩ .f32) (b : FVec Ideal ⟨1, ![N]⟩ .f32) : FVec Ideal ⟨2, ![M, N]⟩ .f32 :=
  fun i => X i + b (ix1 ⟨(i 1).val, (i 1).isLt⟩)

theorem biasPrelu_ix2 (X : FVec Ideal ⟨2, ![M, N]⟩ .f32) (b : FVec Ideal ⟨1, ![N]⟩ .f32) (a : FVec Ideal ⟨1, ![1]⟩ .f32)
    (r : Fin M) (q : Fin N) : biasPrelu X b a (ix2 r q) = prelu1 (a (ix1 (0 : Fin 1))) (X (ix2 r q) + b (ix1 q)) := rfl

theorem biasAdd_ix2 (X : FVec Ideal ⟨2, ![M, N]⟩ .f32) (b : FVec Ideal ⟨1, ![N]⟩ .f32) (r : Fin M) (q : Fin N) :
    biasAdd X b (ix2 r q) = X (ix2 r q) + b (ix1 q) := rfl

/-! ## A block of rows -/

/-- The product of a block of rows of `X` with `W`, both narrowed to another float format first and accumulated into
    the zero block, is that block of rows of `X·W`. -/
theorem dense_rows (row : Fin m → Fin M) (X : FVec Ideal ⟨2, ![M, K]⟩ .f32) (W : FVec Ideal ⟨2, ![K, N]⟩ .f32)
    (A : FVec Ideal ⟨2, ![m, K]⟩ .f32) (B : FVec Ideal ⟨2, ![K, N]⟩ .f32)
    (D : DotDims ⟨2, ![m, K]⟩ ⟨2, ![K, N]⟩ ⟨2, ![m, N]⟩) (hD : D = DotDims.plain m K N)
    (hA : ∀ a c, A (ix2 a c) = X (ix2 (row a) c)) (hB : ∀ c b, B (ix2 c b) = W (ix2 c b))
    {χ : FTy} (hχ : χ.bits < FTy.f32.bits)
    (j : (⟨2, ![m, N]⟩ : Shape).Idx) (i : (⟨2, ![M, N]⟩ : Shape).Idx)
    (h0 : (i 0).val = (row (j 0)).val) (h1 : (i 1).val = (j 1).val) :
    matmul D none (truncf χ A hχ) (truncf χ B hχ) (constant (F := Ideal) ⟨2, ![m, N]⟩ .f32 0x00000000#32) j
      = dense X W i := by
  subst hD
  exact Cert.LibRowBlockDot.matmul_rowBlock_apply_idx none none X W (truncf χ A hχ) (truncf χ B hχ) row
    (fun a c => hA a c) (fun c b => hB c b) j i h0 h1

/-- Bias and PReLU on a block of rows, the bias given as one row [1,N] and the slope as one cell [1,1] (what a
    tiled program stages), is that block of rows of `biasPrelu`. -/
theorem biasPrelu_rows (row : Fin m → Fin M) (X : FVec Ideal ⟨2, ![M, N]⟩ .f32) (b : FVec Ideal ⟨1, ![N]⟩ .f32)
    (a : FVec Ideal ⟨1, ![1]⟩ .f32)
    (A : FVec Ideal ⟨2, ![m, N]⟩ .f32) (B : FVec Ideal ⟨2, ![1, N]⟩ .f32) (C : FVec Ideal ⟨2, ![1, 1]⟩ .f32)
    (hA : ∀ r q, A (ix2 r q) = X (ix2 (row r) q)) (hB : ∀ q, B (ix2 (0 : Fin 1) q) = b (ix1 q))
    (hC : C (ix2 (0 : Fin 1) (0 : Fin 1)) = a (ix1 (0 : Fin 1)))
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    prelu1 (C (ix2 (0 : Fin 1) (0 : Fin 1))) (A j + broadcastTo ⟨2, ![m, N]⟩ B hbc j) = biasPrelu X b a i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasPrelu_ix2, broadcastTo_1b_ab_apply, hA, hB, hC]

/-- A bias on a block of rows, the bias given as one row [1,N], is that block of rows of `biasAdd`. -/
theorem biasAdd_rows (row : Fin m → Fin M) (X : FVec Ideal ⟨2, ![M, N]⟩ .f32) (b : FVec Ideal ⟨1, ![N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = b (ix1 q))
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    A j + broadcastTo ⟨2, ![m, N]⟩ B hbc j = biasAdd X b i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasAdd_ix2, broadcastTo_1b_ab_apply, hA, hB]

end Cert.GraphLayer

end
-- ==== Proof.GcnSpec.lean ====
/-
  A two-layer graph convolution as one function of its six argument arrays, on the extended reals.

  Both programs compute, with x the node features, ei the edge list (row 0 the sources, row 1 the targets) and
  W1, b1, W2, b2 the two layers' weights and biases:

    s = sources ++ (0 … n-1),  d = targets ++ (0 … n-1)              (a self loop per node appended)
    deg = for each node the number of entries of d that name it,    dinv = deg > 0 ? 1/sqrt(deg) : 0
    norm(e) = dinv(s e) · dinv(d e)
    aggregate H = for each node p the sum over the edges e with d e = p of H(s e, ·) · norm(e)
    out = aggregate ((relu (aggregate (x·W1) + b1)) · W2) + b2

  where an index below zero is first wrapped by n, and gather and scatter-add are the host's. The edge-side
  stages (`srcOf`, `dstOf`, `normOf`, `agg128`, `agg64`) are written once, as the host operations both programs
  print; the dense stages are `GraphLayer.dense` (a whole matrix product), `biasRelu` and `biasOnly` (a bias row
  added to every row, then for the first the maximum with zero), index by index.
-/
import proofs.«140973_j51015621542485_1_alg».proof.ReferenceIdeal
import proofs.«140973_j51015621542485_1_alg».proof.Proof.LibGraphLayer
import Idealize.ShloMosaic.PureOps.Ideal
import Idealize.ShloMosaic.Lib.ValueIdx
import Idealize.ShloMosaic.Lib.ValueLayout
import Idealize.ShloMosaic.Lib.Pipeline.Value

noncomputable section

namespace Cert.GcnSpec

open Cert.ReferenceIdeal Cert.ReferenceIdeal.Facts₀ Idealize.ShloMosaic Idealize.ShloMosaic.ValueIdx

variable [Cert.ReferenceIdeal.Facts]

/-- Integer and float arrays of the shapes the stages pass. -/
abbrev EdgeIdx := IVec S1700000 32
abbrev EdgeF := FVec Ideal S1700000 .f32
abbrev NodeF := FVec Ideal S100000 .f32
abbrev EdgeList := IVec S2x1600000 32

/-- Row `r` of the edge list followed by the node numbers 0 … n-1: the edges' sources (r = 0) or targets (r = 1)
    with a self loop per node appended. -/
def srcOf (ei : EdgeList) : EdgeIdx :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def dstOf (ei : EdgeList) : EdgeIdx :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- Each node's degree: one added at the node each entry of `d` names. -/
def degOf (d : EdgeIdx) : NodeF :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- `deg > 0`, as a mask. -/
def degPos (deg : NodeF) : IVec S100000 1 :=
  cmpf (F := Ideal) .ogt deg (broadcastInDim S100000 ![] bcast_S_S100000 (constant (F := Ideal) S_ .f32 0x00000000#32))

/-- `deg > 0 ? 1/sqrt(deg) : 0`, from the mask, the reciprocal roots and the zero. -/
def dinvOf (pos : IVec S100000 1) (rs : NodeF) (z : FVec Ideal S_ .f32) : NodeF :=
  select pos rs (broadcastInDim S100000 ![] bcast_S_S100000 (id z))

/-- A node number below zero wrapped by the number of nodes, as a column of gather indices. -/
def wrapCol (v : EdgeIdx) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The edge weights: `dinv` at each edge's source times `dinv` at its target. -/
def normOf (dinv : NodeF) (s d : EdgeIdx) : EdgeF :=
  mulf (Host.gather gather_S100000_S1700000x1_S1700000_n_0_n_n_0_1_1 dinv (wrapCol s))
    (Host.gather gather_S100000_S1700000x1_S1700000_n_0_n_n_0_1_1 dinv (wrapCol d))

/-- The weighted aggregation of 128-wide rows: each edge's source row times the edge's weight, added at its target. -/
def agg128 (h : FVec Ideal S100000x128 .f32) (s d : EdgeIdx) (n : EdgeF) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (Host.gather gather_S100000x128_S1700000x1_S1700000x128_1_0_n_n_0_1_1128 h (wrapCol s))
      (broadcastInDim S1700000x128 ![0, 1] bcast_S1700000x1_S1700000x128_0_1 (broadcastInDim S1700000x1 ![0] bcast_S1700000_S1700000x1_0 n)))

/-- The same for 64-wide rows. -/
def agg64 (h : FVec Ideal S100000x64 .f32) (s d : EdgeIdx) (n : EdgeF) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf (Host.gather gather_S100000x64_S1700000x1_S1700000x64_1_0_n_n_0_1_164 h (wrapCol s))
      (broadcastInDim S1700000x64 ![0, 1] bcast_S1700000x1_S1700000x64_0_1 (broadcastInDim S1700000x1 ![0] bcast_S1700000_S1700000x1_0 n)))

/-- The edge weights of an edge list, the stages composed. -/
def normOfEdges (ei : EdgeList) : EdgeF :=
  normOf (dinvOf (degPos (degOf (dstOf ei))) (Host.rsqrt (F := Ideal) (degOf (dstOf ei))) (constant (F := Ideal) S_ .f32 0x00000000#32)) (srcOf ei) (dstOf ei)

end Cert.GcnSpec

end
-- ==== Proof.KernelStretch.lean ====
/-
  The idealized kernel program's stretches of host operations, one at a time, over ANY contents of the buffers.

  Between its four tiled regions the program runs eight stretches of host operations. Each is a fold of its
  operations' results over a valuation `V` of the buffers. Read at one buffer it is: for a buffer the stretch writes,
  the stage of the convolution that buffer holds (`GcnSpec`), of the buffers the stretch reads; for a buffer the
  stretch does not write, what `V` had there (`writes…` lists what each stretch writes).
-/
import proofs.«140973_j51015621542485_1_alg».proof.Proof.Gen.KernelIdeal.Launch
import proofs.«140973_j51015621542485_1_alg».proof.Proof.Gen.ReferenceIdeal
import proofs.«140973_j51015621542485_1_alg».proof.Proof.GcnSpec
import Idealize.ShloMosaic.Lib.StableHlo.Run

set_option maxRecDepth 8192
set_option maxHeartbeats 1000000

noncomputable section

namespace Cert.KernelIdeal.Stretch

open Cert.KernelIdeal Cert.KernelIdeal.Gen Cert.KernelIdeal.Facts₀ Idealize.ShloMosaic Idealize.ShloMosaic.TcCoe Idealize.SL.Sem Idealize.ShloMosaic.StableHlo
open Cert.GcnSpec

variable (V : Valuation τ sig (Elt Ideal))

/-! ## What each stretch writes -/

/-- The arrays the operations of this stretch write. -/
abbrev wl0 : List (Ref sig .tc) := [main_v0, main_v1, main_v2, main_v3, main_v4, main_v5, main_v6, main_v7, main_cst, main_v8, main_cst_0, main_v9, main_v10, main_v11, main_cst_1, main_v12, main_v13, main_v14, main_cst_2]
theorem writes0 : (hostOps0 : List (HloOp τ sig (Elt Ideal))).Forall fun op => op.writes ⊆ (wl0.map (Proc.devRef (τ := τ) .tc)).toFinset := by
  simp only [hostOps0, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl0_1 : List (Ref sig .tc) := [main_call0_v0, main_call0_v1, main_v15]
theorem writes0_1 : (hostOps0_1 : List (HloOp τ sig (Elt Ideal))).Forall fun op => op.writes ⊆ (wl0_1.map (Proc.devRef (τ := τ) .tc)).toFinset := by
  simp only [hostOps0_1, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl0_2 : List (Ref sig .tc) := [main_c, main_v16, main_v17, main_c_3, main_v18, main_v19, main_v20, main_v21, main_v22, main_c_4, main_v23, main_v24, main_c_5, main_v25, main_v26, main_v27, main_v28, main_v29, main_v30]
theorem writes0_2 : (hostOps0_2 : List (HloOp τ sig (Elt Ideal))).Forall fun op => op.writes ⊆ (wl0_2.map (Proc.devRef (τ := τ) .tc)).toFinset := by
  simp only [hostOps0_2, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl1 : List (Ref sig .tc) := [main_c_6, main_v32, main_v33, main_c_7, main_v34, main_v35, main_v36, main_v37, main_v38, main_v39, main_v40, main_v41, main_cst_8, main_v42, main_v43, main_v44, main_v45]
theorem writes1 : (hostOps1 : List (HloOp τ sig (Elt Ideal))).Forall fun op => op.writes ⊆ (wl1.map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl2 : List (Ref sig .tc) := [main_v47, main_v48, main_v49, main_v50, main_v51, main_v52, main_v53, main_v54, main_cst_9, main_v55, main_cst_10, main_v56, main_v57, main_v58, main_cst_11, main_v59, main_v60, main_v61, main_cst_12]
theorem writes2 : (hostOps2 : List (HloOp τ sig (Elt Ideal))).Forall fun op => op.writes ⊆ (wl2.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl2_1 : List (Ref sig .tc) := [main_call1_v0, main_call1_v1, main_v62]
theorem writes2_1 : (hostOps2_1 : List (HloOp τ sig (Elt Ideal))).Forall fun op => op.writes ⊆ (wl2_1.map (Proc.devRef (τ := τ) .tc)).toFinset := by
  simp only [hostOps2_1, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl2_2 : List (Ref sig .tc) := [main_c_13, main_v63, main_v64, main_c_14, main_v65, main_v66, main_v67, main_v68, main_v69, main_c_15, main_v70, main_v71, main_c_16, main_v72, main_v73, main_v74, main_v75, main_v76, main_v77]
theorem writes2_2 : (hostOps2_2 : List (HloOp τ sig (Elt Ideal))).Forall fun op => op.writes ⊆ (wl2_2.map (Proc.devRef (τ := τ) .tc)).toFinset := by
  simp only [hostOps2_2, List.Forall, nullary_writes, unary_writes, binary_writes, ternary_writes, reshape_writes, Finset.singleton_subset_iff, List.mem_toFinset]
  repeat' apply And.intro
  all_goals exact List.mem_map_of_mem (by decide)

/-- The arrays the operations of this stretch write. -/
abbrev wl3 : List (Ref sig .tc) := [main_c_17, main_v79, main_v80, main_c_18, main_v81, main_v82, main_v83, main_v84, main_v85, main_v86, main_v87, main_v88, main_cst_19, main_v89, main_v90, main_v91, main_v92]
theorem writes3 : (hostOps3 : List (HloOp τ sig (Elt Ideal))).Forall fun op => op.writes ⊆ (wl3.map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)

/-! ## The first layer's edge side: sources, targets, degrees, weights -/

theorem h0_v3 : after (hostOps0 (F := Ideal)) V (Proc.devRef .tc main_v3) = srcOf (V (Proc.devRef .tc main_arg1)) := by
  simp only [hostOps0]; after_results; rfl

theorem h0_v7 : after (hostOps0 (F := Ideal)) V (Proc.devRef .tc main_v7) = dstOf (V (Proc.devRef .tc main_arg1)) := by
  simp only [hostOps0]; after_results; rfl

theorem h0_v13 : after (hostOps0 (F := Ideal)) V (Proc.devRef .tc main_v13) = degPos (degOf (dstOf (V (Proc.devRef .tc main_arg1)))) := by
  simp only [hostOps0]; after_results; rfl

theorem h0_v14 : after (hostOps0 (F := Ideal)) V (Proc.devRef .tc main_v14) = Host.rsqrt (F := Ideal) (degOf (dstOf (V (Proc.devRef .tc main_arg1)))) := by
  simp only [hostOps0]; after_results; rfl

theorem h0_cst_2 : after (hostOps0 (F := Ideal)) V (Proc.devRef .tc main_cst_2) = constant (F := Ideal) S_ .f32 0x00000000#32 := by
  simp only [hostOps0]; after_results

theorem h0_1_v15 : after (hostOps0_1 (F := Ideal)) V (Proc.devRef .tc main_v15)
    = dinvOf (V (Proc.devRef .tc main_v13)) (V (Proc.devRef .tc main_v14)) (V (Proc.devRef .tc main_cst_2)) := by
  simp only [hostOps0_1]; after_results; rfl

theorem h0_2_v30 : after (hostOps0_2 (F := Ideal)) V (Proc.devRef .tc main_v30)
    = normOf (V (Proc.devRef .tc main_v15)) (V (Proc.devRef .tc main_v3)) (V (Proc.devRef .tc main_v7)) := by
  simp only [hostOps0_2]; after_results_simp; rfl

/-! ## The first layer's aggregation and its bias row -/

theorem h1_v44 : after (hostOps1 (F := Ideal)) V (Proc.devRef .tc main_v44)
    = agg128 (V (Proc.devRef .tc main_v31)) (V (Proc.devRef .tc main_v3)) (V (Proc.devRef .tc main_v7)) (V (Proc.devRef .tc main_v30)) := by
  simp only [hostOps1]; after_results_simp; rfl

theorem h1_v45 : after (hostOps1 (F := Ideal)) V (Proc.devRef .tc main_v45)
    = shapeCast S1x128 (V (Proc.devRef .tc main_arg3)) Facts₀.shapeCasts_S128_S1x128 := by
  simp only [hostOps1]; after_results_simp; rfl

/-! ## The second layer's edge side -/

theorem h2_v50 : after (hostOps2 (F := Ideal)) V (Proc.devRef .tc main_v50) = srcOf (V (Proc.devRef .tc main_arg1)) := by
  simp only [hostOps2]; after_results; rfl

theorem h2_v54 : after (hostOps2 (F := Ideal)) V (Proc.devRef .tc main_v54) = dstOf (V (Proc.devRef .tc main_arg1)) := by
  simp only [hostOps2]; after_results; rfl

theorem h2_v60 : after (hostOps2 (F := Ideal)) V (Proc.devRef .tc main_v60) = degPos (degOf (dstOf (V (Proc.devRef .tc main_arg1)))) := by
  simp only [hostOps2]; after_results; rfl

theorem h2_v61 : after (hostOps2 (F := Ideal)) V (Proc.devRef .tc main_v61) = Host.rsqrt (F := Ideal) (degOf (dstOf (V (Proc.devRef .tc main_arg1)))) := by
  simp only [hostOps2]; after_results; rfl

theorem h2_cst_12 : after (hostOps2 (F := Ideal)) V (Proc.devRef .tc main_cst_12) = constant (F := Ideal) S_ .f32 0x00000000#32 := by
  simp only [hostOps2]; after_results

theorem h2_1_v62 : after (hostOps2_1 (F := Ideal)) V (Proc.devRef .tc main_v62)
    = dinvOf (V (Proc.devRef .tc main_v60)) (V (Proc.devRef .tc main_v61)) (V (Proc.devRef .tc main_cst_12)) := by
  simp only [hostOps2_1]; after_results; rfl

theorem h2_2_v77 : after (hostOps2_2 (F := Ideal)) V (Proc.devRef .tc main_v77)
    = normOf (V (Proc.devRef .tc main_v62)) (V (Proc.devRef .tc main_v50)) (V (Proc.devRef .tc main_v54)) := by
  simp only [hostOps2_2]; after_results_simp; rfl

/-! ## The second layer's aggregation and its bias row -/

theorem h3_v91 : after (hostOps3 (F := Ideal)) V (Proc.devRef .tc main_v91)
    = agg64 (V (Proc.devRef .tc main_v78)) (V (Proc.devRef .tc main_v50)) (V (Proc.devRef .tc main_v54)) (V (Proc.devRef .tc main_v77)) := by
  simp only [hostOps3]; after_results_simp; rfl

theorem h3_v92 : after (hostOps3 (F := Ideal)) V (Proc.devRef .tc main_v92)
    = shapeCast S1x64 (V (Proc.devRef .tc main_arg5)) Facts₀.shapeCasts_S64_S1x64 := by
  simp only [hostOps3]; after_results_simp; rfl

end Cert.KernelIdeal.Stretch

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.KernelRegions.lean ====
/-
  The four tiled regions of the idealized kernel program, each as ONE whole-array stage.

  Every region walks the 100000 rows of its matrix operand in 20 blocks of 5000 rows; at point `t` it loads block
  `t` of rows and the whole weight matrix or bias row, computes, and writes back block `t` of rows of its output.
  Each body treats rows independently (a matrix product, or a bias row added with or without a rectifier), so the
  block it writes is block `t` of rows of the stage applied to the whole arrays; the 20 blocks tile the output, so
  after the region the output array IS that stage of the region's input arrays, whatever the buffers held when the
  region was entered (`V`).
-/
import proofs.«140973_j51015621542485_1_alg».proof.Proof.Gen.KernelIdeal.Frame
import proofs.«140973_j51015621542485_1_alg».proof.Proof.LibGraphLayer
import proofs.«140973_j51015621542485_1_alg».proof.Proof.LibBiasRows
import Idealize.ShloMosaic.Lib.Pipeline.Value
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: x · W1 -/

/-- The printed index maps over the grid: the row-tiled windows take block `t` of rows, the weight or bias window its
    one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of rows of the whole-array stage of the region's input arrays. -/
theorem flushed0 (c : Dev nD) (t : Fin cfg0.N) :
    (dat0 V c).flushed 2 t = ((cfg0.win 2).blk t).view.read (Elt Ideal) (Cert.GraphLayer.dense (M := 100000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  have ht : t.val < 20 := lt_of_lt_of_eq t.isLt N_0
  funext j
  show k0_pay1 (iblk0 V c 0 t) (iblk0 V c 1 t) j = (Cert.GraphLayer.dense (M := 100000) (K := 128) (N := 128) (V c main_arg0) (V c main_arg2)) (((cfg0.win 2).blk t).view.emb j)
  unfold k0_pay1
  refine Cert.GraphLayer.dense_rows (m := 5000) (fun a => ⟨t.val * 5000 + a.val, by have := a.isLt; omega⟩)
    (V c main_arg0) (V c main_arg2) (iblk0 V c 0 t) (iblk0 V c 1 t) _ rfl ?_ ?_ _ j _ ?_ ?_
  · intro a k
    show V c main_arg0 (((cfg0.win 0).blk t).view.emb (ix2 a k)) = V c main_arg0 _
    refine congrArg _ (funext fun x => Fin.ext ?_)
    match x with
    | ⟨0, _⟩ => show win0_0.index t (0 : Fin 2) * 5000 + 1 * a.val = t.val * 5000 + a.val; omega
    | ⟨1, _⟩ => show win0_0.index t (1 : Fin 2) * 128 + 1 * k.val = k.val; omega
  · intro k b
    show V c main_arg2 (((cfg0.win 1).blk t).view.emb (ix2 k b)) = V c main_arg2 _
    refine congrArg _ (funext fun x => Fin.ext ?_)
    match x with
    | ⟨0, _⟩ => show win0_1.index t (0 : Fin 2) * 128 + 1 * k.val = k.val; omega
    | ⟨1, _⟩ => show win0_1.index t (1 : Fin 2) * 128 + 1 * b.val = b.val; omega
  · show win0_2.index t (0 : Fin 2) * 5000 + 1 * (j 0).val = t.val * 5000 + (j 0).val; omega
  · show win0_2.index t (1 : Fin 2) * 128 + 1 * (j 1).val = (j 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row is in some point's block: row `r` in block `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, lt_of_lt_of_eq (by omega) N_0.symm⟩, rfl⟩
  obtain ⟨-, -, -, -, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after the region: the whole-array stage of its input arrays as the region found them. -/
theorem final0 (c : Dev nD) : (dat0 V c).arrAt 2 cfg0.N = Cert.GraphLayer.dense (M := 100000) (K := 128) (N := 128) (V c main_arg0) (V c main_arg2) :=
  (dat0 V c).arrAt_eq_of_cover 2 _ (fun t _ => flushed0 V c t) (cover0)

/-! ## Region 1: the first layer's bias and rectifier -/

/-- The printed index maps over the grid: the row-tiled windows take block `t` of rows, the weight or bias window its
    one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of rows of the whole-array stage of the region's input arrays. -/
theorem flushed1 (c : Dev nD) (t : Fin cfg1.N) :
    (dat1 V c).flushed 2 t = ((cfg1.win 2).blk t).view.read (Elt Ideal) (Cert.LibBiasRows.biasRelu (M := 100000) (N := 128) (V c main_v44) (V c main_v45)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx1 t
  have ht : t.val < 20 := lt_of_lt_of_eq t.isLt N_1
  funext j
  show k1_pay1 (iblk1 V c 0 t) (iblk1 V c 1 t) j = (Cert.LibBiasRows.biasRelu (M := 100000) (N := 128) (V c main_v44) (V c main_v45)) (((cfg1.win 2).blk t).view.emb j)
  unfold k1_pay1
  refine Cert.LibBiasRows.biasRelu_rows (m := 5000) (fun a => ⟨t.val * 5000 + a.val, by have := a.isLt; omega⟩)
    (V c main_v44) (V c main_v45) (iblk1 V c 0 t) (iblk1 V c 1 t) ?_ ?_ _ _ _ j _ ?_ ?_
  · intro a k
    show V c main_v44 (((cfg1.win 0).blk t).view.emb (ix2 a k)) = V c main_v44 _
    refine congrArg _ (funext fun x => Fin.ext ?_)
    match x with
    | ⟨0, _⟩ => show win1_0.index t (0 : Fin 2) * 5000 + 1 * a.val = t.val * 5000 + a.val; omega
    | ⟨1, _⟩ => show win1_0.index t (1 : Fin 2) * 128 + 1 * k.val = k.val; omega
  · intro q
    show V c main_v45 (((cfg1.win 1).blk t).view.emb (ix2 (0 : Fin 1) q)) = V c main_v45 _
    refine congrArg _ (funext fun x => Fin.ext ?_)
    match x with
    | ⟨0, _⟩ => show win1_1.index t (0 : Fin 2) * 1 + 1 * 0 = 0; omega
    | ⟨1, _⟩ => show win1_1.index t (1 : Fin 2) * 128 + 1 * q.val = q.val; omega
  · show win1_2.index t (0 : Fin 2) * 5000 + 1 * (j 0).val = t.val * 5000 + (j 0).val; omega
  · show win1_2.index t (1 : Fin 2) * 128 + 1 * (j 1).val = (j 1).val; omega

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every row is in some point's block: row `r` in block `r / 5000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, lt_of_lt_of_eq (by omega) N_1.symm⟩, rfl⟩
  obtain ⟨-, -, -, -, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after the region: the whole-array stage of its input arrays as the region found them. -/
theorem final1 (c : Dev nD) : (dat1 V c).arrAt 2 cfg1.N = Cert.LibBiasRows.biasRelu (M := 100000) (N := 128) (V c main_v44) (V c main_v45) :=
  (dat1 V c).arrAt_eq_of_cover 2 _ (fun t _ => flushed1 V c t) (cover1)

/-! ## Region 2: h · W2 -/

/-- The printed index maps over the grid: the row-tiled windows take block `t` of rows, the weight or bias window its
    one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of rows of the whole-array stage of the region's input arrays. -/
theorem flushed2 (c : Dev nD) (t : Fin cfg2.N) :
    (dat2 V c).flushed 2 t = ((cfg2.win 2).blk t).view.read (Elt Ideal) (Cert.GraphLayer.dense (M := 100000) (K := 128) (N := 64) (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx2 t
  have ht : t.val < 20 := lt_of_lt_of_eq t.isLt N_2
  funext j
  show k2_pay1 (iblk2 V c 0 t) (iblk2 V c 1 t) j = (Cert.GraphLayer.dense (M := 100000) (K := 128) (N := 64) (V c main_v46) (V c main_arg4)) (((cfg2.win 2).blk t).view.emb j)
  unfold k2_pay1
  refine Cert.GraphLayer.dense_rows (m := 5000) (fun a => ⟨t.val * 5000 + a.val, by have := a.isLt; omega⟩)
    (V c main_v46) (V c main_arg4) (shapeCast S5000x128 (iblk2 V c 0 t) _) (iblk2 V c 1 t) _ rfl ?_ ?_ _ j _ ?_ ?_
  · intro a k
    refine (congrFun (shapeCast_self (s := S5000x128) (iblk2 V c 0 t) _) (ix2 a k)).trans ?_
    show V c main_v46 (((cfg2.win 0).blk t).view.emb (ix2 a k)) = V c main_v46 _
    refine congrArg _ (funext fun x => Fin.ext ?_)
    match x with
    | ⟨0, _⟩ => show win2_0.index t (0 : Fin 2) * 5000 + 1 * a.val = t.val * 5000 + a.val; omega
    | ⟨1, _⟩ => show win2_0.index t (1 : Fin 2) * 128 + 1 * k.val = k.val; omega
  · intro k b
    show V c main_arg4 (((cfg2.win 1).blk t).view.emb (ix2 k b)) = V c main_arg4 _
    refine congrArg _ (funext fun x => Fin.ext ?_)
    match x with
    | ⟨0, _⟩ => show win2_1.index t (0 : Fin 2) * 128 + 1 * k.val = k.val; omega
    | ⟨1, _⟩ => show win2_1.index t (1 : Fin 2) * 64 + 1 * b.val = b.val; omega
  · show win2_2.index t (0 : Fin 2) * 5000 + 1 * (j 0).val = t.val * 5000 + (j 0).val; omega
  · show win2_2.index t (1 : Fin 2) * 64 + 1 * (j 1).val = (j 1).val; omega

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v78).slice (win2_2.rect t)).set ↔ _
  rw [View.set_slice_whole, Rect.mem_set_unit]
  exact Iff.rfl

/-- Every row is in some point's block: row `r` in block `r / 5000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 := ⟨⟨(i 0).val / 5000, lt_of_lt_of_eq (by omega) N_2.symm⟩, rfl⟩
  obtain ⟨-, -, -, -, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's output array after the region: the whole-array stage of its input arrays as the region found them. -/
theorem final2 (c : Dev nD) : (dat2 V c).arrAt 2 cfg2.N = Cert.GraphLayer.dense (M := 100000) (K := 128) (N := 64) (V c main_v46) (V c main_arg4) :=
  (dat2 V c).arrAt_eq_of_cover 2 _ (fun t _ => flushed2 V c t) (cover2)

/-! ## Region 3: the second layer's bias -/

/-- The printed index maps over the grid: the row-tiled windows take block `t` of rows, the weight or bias window its
    one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of rows of the whole-array stage of the region's input arrays. -/
theorem flushed3 (c : Dev nD) (t : Fin cfg3.N) :
    (dat3 V c).flushed 2 t = ((cfg3.win 2).blk t).view.read (Elt Ideal) (Cert.LibBiasRows.biasOnly (M := 100000) (N := 64) (V c main_v91) (V c main_v92)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx3 t
  have ht : t.val < 20 := lt_of_lt_of_eq t.isLt N_3
  funext j
  show k3_pay1 (iblk3 V c 0 t) (iblk3 V c 1 t) j = (Cert.LibBiasRows.biasOnly (M := 100000) (N := 64) (V c main_v91) (V c main_v92)) (((cfg3.win 2).blk t).view.emb j)
  unfold k3_pay1
  refine Cert.LibBiasRows.biasOnly_rows (m := 5000) (fun a => ⟨t.val * 5000 + a.val, by have := a.isLt; omega⟩)
    (V c main_v91) (V c main_v92) (iblk3 V c 0 t) (iblk3 V c 1 t) ?_ ?_ _ _ _ j _ ?_ ?_
  · intro a k
    show V c main_v91 (((cfg3.win 0).blk t).view.emb (ix2 a k)) = V c main_v91 _
    refine congrArg _ (funext fun x => Fin.ext ?_)
    match x with
    | ⟨0, _⟩ => show win3_0.index t (0 : Fin 2) * 5000 + 1 * a.val = t.val * 5000 + a.val; omega
    | ⟨1, _⟩ => show win3_0.index t (1 : Fin 2) * 64 + 1 * k.val = k.val; omega
  · intro q
    show V c main_v92 (((cfg3.win 1).blk t).view.emb (ix2 (0 : Fin 1) q)) = V c main_v92 _
    refine congrArg _ (funext fun x => Fin.ext ?_)
    match x with
    | ⟨0, _⟩ => show win3_1.index t (0 : Fin 2) * 1 + 1 * 0 = 0; omega
    | ⟨1, _⟩ => show win3_1.index t (1 : Fin 2) * 64 + 1 * q.val = q.val; omega
  · show win3_2.index t (0 : Fin 2) * 5000 + 1 * (j 0).val = t.val * 5000 + (j 0).val; omega
  · show win3_2.index t (1 : Fin 2) * 64 + 1 * (j 1).val = (j 1).val; omega

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v93).slice (win3_2.rect t)).set ↔ _
  rw [View.set_slice_whole, Rect.mem_set_unit]
  exact Iff.rfl

/-- Every row is in some point's block: row `r` in block `r / 5000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 := ⟨⟨(i 0).val / 5000, lt_of_lt_of_eq (by omega) N_3.symm⟩, rfl⟩
  obtain ⟨-, -, -, -, e4, e5⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The region's output array after the region: the whole-array stage of its input arrays as the region found them. -/
theorem final3 (c : Dev nD) : (dat3 V c).arrAt 2 cfg3.N = Cert.LibBiasRows.biasOnly (M := 100000) (N := 64) (V c main_v91) (V c main_v92) :=
  (dat3 V c).arrAt_eq_of_cover 2 _ (fun t _ => flushed3 V c t) (cover3)

end Cert.KernelIdeal.RegionValue

end
-- ==== Proof.KernelValue.lean ====
/-
  The idealized kernel program's result array as one function of its six argument arrays.

  The program's run ends with every buffer at the last valuation of a chain: launch contents, then alternately a
  stretch of host operations (each buffer it writes at its stage of the buffers it reads, every other buffer kept)
  and a tiled region (its output array at its whole-array stage of its input arrays, every other buffer kept). Walking
  the chain from the launch: the edge list gives the sources, targets and edge weights; region 0 gives x·W1; the
  next stretch aggregates it over the edges and reshapes the bias; region 1 adds the bias and rectifies; the next
  stretches compute sources, targets and weights again from the same edge list; region 2 multiplies by W2; the last
  stretch aggregates; region 3 adds the second bias. So the result array is `kernelOut` of the arguments.
-/
import proofs.«140973_j51015621542485_1_alg».proof.Proof.Gen.KernelIdeal.Frame
import proofs.«140973_j51015621542485_1_alg».proof.Proof.KernelStretch
import proofs.«140973_j51015621542485_1_alg».proof.Proof.KernelRegions

set_option maxRecDepth 16384

noncomputable section

namespace Cert.KernelIdeal.ValueChain

open Cert.KernelIdeal Cert.KernelIdeal.Gen Idealize.ShloMosaic Idealize.ShloMosaic.TcCoe Idealize.SL.Sem Idealize.ShloMosaic.StableHlo
open Cert.KernelIdeal.Stretch Cert.KernelIdeal.RegionValue Cert.GcnSpec Cert.LibBiasRows Cert.GraphLayer

variable (m : (ℓ : Loc nD τ sig) → Buf (Elt Ideal) ℓ) (ρ : Dev nD → PrngReg) (c : Dev nD)

/-- The convolution as the kernel program computes it: both bias vectors reshaped to rows. -/
def kernelOut (x : FVec Ideal S100000x128 .f32) (ei : IVec S2x1600000 32) (W1 : FVec Ideal S128x128 .f32) (b1 : FVec Ideal S128 .f32)
    (W2 : FVec Ideal S128x64 .f32) (b2 : FVec Ideal S64 .f32) : FVec Ideal S100000x64 .f32 :=
  biasOnly (M := 100000) (N := 64)
    (agg64 (dense (M := 100000) (K := 128) (N := 64)
        (biasRelu (M := 100000) (N := 128) (agg128 (dense (M := 100000) (K := 128) (N := 128) x W1) (srcOf ei) (dstOf ei) (normOfEdges ei))
          (shapeCast S1x128 b1 Facts₀.shapeCasts_S128_S1x128)) W2)
      (srcOf ei) (dstOf ei) (normOfEdges ei))
    (shapeCast S1x64 b2 Facts₀.shapeCasts_S64_S1x64)

/-! ## Up to region 0 -/

/-- A buffer none of the first three stretches writes holds its launch contents when region 0 is entered. -/
theorem W3_keep (r : Ref sig .tc) (h0 : r ∉ wl0) (h1 : r ∉ wl0_1) (h2 : r ∉ wl0_2) :
    W3 m ρ c (Proc.devRef .tc r) = m ((c.tc : Thread nD τ).loc r) :=
  (after_of_writes_sub hostOps0_2 _ writes0_2 h2).trans
    ((after_of_writes_sub hostOps0_1 _ writes0_1 h1).trans (after_of_writes_sub hostOps0 _ writes0 h0))

theorem W3_v3 : W3 m ρ c (Proc.devRef .tc main_v3) = srcOf (m ((c.tc : Thread nD τ).loc main_arg1)) :=
  (after_of_writes_sub hostOps0_2 _ writes0_2 (by decide)).trans
    ((after_of_writes_sub hostOps0_1 _ writes0_1 (by decide)).trans (h0_v3 (W0 m ρ c)))

theorem W3_v7 : W3 m ρ c (Proc.devRef .tc main_v7) = dstOf (m ((c.tc : Thread nD τ).loc main_arg1)) :=
  (after_of_writes_sub hostOps0_2 _ writes0_2 (by decide)).trans
    ((after_of_writes_sub hostOps0_1 _ writes0_1 (by decide)).trans (h0_v7 (W0 m ρ c)))

theorem W3_v30 : W3 m ρ c (Proc.devRef .tc main_v30) = normOfEdges (m ((c.tc : Thread nD τ).loc main_arg1)) := by
  refine (h0_2_v30 (W2 m ρ c)).trans ?_
  rw [show W2 m ρ c (Proc.devRef .tc main_v15) = _ from h0_1_v15 (W1 m ρ c),
    show W1 m ρ c (Proc.devRef .tc main_v13) = _ from h0_v13 (W0 m ρ c),
    show W1 m ρ c (Proc.devRef .tc main_v14) = _ from h0_v14 (W0 m ρ c),
    show W1 m ρ c (Proc.devRef .tc main_cst_2) = _ from h0_cst_2 (W0 m ρ c),
    show W2 m ρ c (Proc.devRef .tc main_v3) = _ from (after_of_writes_sub hostOps0_1 _ writes0_1 (by decide)).trans (h0_v3 (W0 m ρ c)),
    show W2 m ρ c (Proc.devRef .tc main_v7) = _ from (after_of_writes_sub hostOps0_1 _ writes0_1 (by decide)).trans (h0_v7 (W0 m ρ c))]
  rfl

/-! ## Region 0 and the first aggregation -/

theorem W4_v31 : W4 m ρ c (Proc.devRef .tc main_v31)
    = dense (M := 100000) (K := 128) (N := 128) (m ((c.tc : Thread nD τ).loc main_arg0)) (m ((c.tc : Thread nD τ).loc main_arg2)) := by
  refine (W4_arr m ρ c 2).trans ((final0 (V3 m ρ) c).trans ?_)
  rw [show V3 m ρ c main_arg0 = _ from W3_keep m ρ c main_arg0 (by decide) (by decide) (by decide),
    show V3 m ρ c main_arg2 = _ from W3_keep m ρ c main_arg2 (by decide) (by decide) (by decide)]

theorem W5_v44 : W5 m ρ c (Proc.devRef .tc main_v44)
    = agg128 (dense (M := 100000) (K := 128) (N := 128) (m ((c.tc : Thread nD τ).loc main_arg0)) (m ((c.tc : Thread nD τ).loc main_arg2)))
        (srcOf (m ((c.tc : Thread nD τ).loc main_arg1))) (dstOf (m ((c.tc : Thread nD τ).loc main_arg1)))
        (normOfEdges (m ((c.tc : Thread nD τ).loc main_arg1))) := by
  refine (h1_v44 (W4 m ρ c)).trans ?_
  rw [W4_v31, W4_of_ne m ρ c main_v3 (by decide), W4_of_ne m ρ c main_v7 (by decide), W4_of_ne m ρ c main_v30 (by decide),
    W3_v3, W3_v7, W3_v30]

theorem W5_v45 : W5 m ρ c (Proc.devRef .tc main_v45)
    = shapeCast S1x128 (m ((c.tc : Thread nD τ).loc main_arg3)) Facts₀.shapeCasts_S128_S1x128 := by
  refine (h1_v45 (W4 m ρ c)).trans ?_
  rw [W4_of_ne m ρ c main_arg3 (by decide), W3_keep m ρ c main_arg3 (by decide) (by decide) (by decide)]

/-- The edge list is still as launched when the second layer's stretches start. -/
theorem W6_arg1 : W6 m ρ c (Proc.devRef .tc main_arg1) = m ((c.tc : Thread nD τ).loc main_arg1) :=
  (W6_of_ne m ρ c main_arg1 (by decide)).trans ((after_of_writes_sub hostOps1 _ writes1 (by decide)).trans
    ((W4_of_ne m ρ c main_arg1 (by decide)).trans (W3_keep m ρ c main_arg1 (by decide) (by decide) (by decide))))

/-! ## Region 1 -/

/-- The first layer's output. -/
def hidden (x : FVec Ideal S100000x128 .f32) (ei : IVec S2x1600000 32) (W1 : FVec Ideal S128x128 .f32) (b1 : FVec Ideal S128 .f32) :
    FVec Ideal S100000x128 .f32 :=
  biasRelu (M := 100000) (N := 128) (agg128 (dense (M := 100000) (K := 128) (N := 128) x W1) (srcOf ei) (dstOf ei) (normOfEdges ei))
    (shapeCast S1x128 b1 Facts₀.shapeCasts_S128_S1x128)

theorem W6_v46 : W6 m ρ c (Proc.devRef .tc main_v46)
    = hidden (m ((c.tc : Thread nD τ).loc main_arg0)) (m ((c.tc : Thread nD τ).loc main_arg1))
        (m ((c.tc : Thread nD τ).loc main_arg2)) (m ((c.tc : Thread nD τ).loc main_arg3)) := by
  refine (W6_arr m ρ c 2).trans ((final1 (V5 m ρ) c).trans ?_)
  rw [show V5 m ρ c main_v44 = _ from W5_v44 m ρ c, show V5 m ρ c main_v45 = _ from W5_v45 m ρ c]
  rfl

/-! ## The second layer's edge side, region 2, the second aggregation, region 3 -/

theorem W9_keep (r : Ref sig .tc) (h0 : r ∉ wl2) (h1 : r ∉ wl2_1) (h2 : r ∉ wl2_2) :
    W9 m ρ c (Proc.devRef .tc r) = W6 m ρ c (Proc.devRef .tc r) :=
  (after_of_writes_sub hostOps2_2 _ writes2_2 h2).trans
    ((after_of_writes_sub hostOps2_1 _ writes2_1 h1).trans (after_of_writes_sub hostOps2 _ writes2 h0))

theorem W9_v50 : W9 m ρ c (Proc.devRef .tc main_v50) = srcOf (m ((c.tc : Thread nD τ).loc main_arg1)) :=
  (after_of_writes_sub hostOps2_2 _ writes2_2 (by decide)).trans
    ((after_of_writes_sub hostOps2_1 _ writes2_1 (by decide)).trans ((h2_v50 (W6 m ρ c)).trans (congrArg srcOf (W6_arg1 m ρ c))))

theorem W9_v54 : W9 m ρ c (Proc.devRef .tc main_v54) = dstOf (m ((c.tc : Thread nD τ).loc main_arg1)) :=
  (after_of_writes_sub hostOps2_2 _ writes2_2 (by decide)).trans
    ((after_of_writes_sub hostOps2_1 _ writes2_1 (by decide)).trans ((h2_v54 (W6 m ρ c)).trans (congrArg dstOf (W6_arg1 m ρ c))))

theorem W9_v77 : W9 m ρ c (Proc.devRef .tc main_v77) = normOfEdges (m ((c.tc : Thread nD τ).loc main_arg1)) := by
  refine (h2_2_v77 (W8 m ρ c)).trans ?_
  rw [show W8 m ρ c (Proc.devRef .tc main_v62) = _ from h2_1_v62 (W7 m ρ c),
    show W7 m ρ c (Proc.devRef .tc main_v60) = _ from h2_v60 (W6 m ρ c),
    show W7 m ρ c (Proc.devRef .tc main_v61) = _ from h2_v61 (W6 m ρ c),
    show W7 m ρ c (Proc.devRef .tc main_cst_12) = _ from h2_cst_12 (W6 m ρ c),
    show W8 m ρ c (Proc.devRef .tc main_v50) = _ from (after_of_writes_sub hostOps2_1 _ writes2_1 (by decide)).trans (h2_v50 (W6 m ρ c)),
    show W8 m ρ c (Proc.devRef .tc main_v54) = _ from (after_of_writes_sub hostOps2_1 _ writes2_1 (by decide)).trans (h2_v54 (W6 m ρ c)),
    W6_arg1]
  rfl

theorem W10_v78 : W10 m ρ c (Proc.devRef .tc main_v78)
    = dense (M := 100000) (K := 128) (N := 64)
        (hidden (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg4)) := by
  refine (W10_arr m ρ c 2).trans ((final2 (V9 m ρ) c).trans ?_)
  rw [show V9 m ρ c main_v46 = _ from (W9_keep m ρ c main_v46 (by decide) (by decide) (by decide)).trans (W6_v46 m ρ c),
    show V9 m ρ c main_arg4 = _ from (W9_keep m ρ c main_arg4 (by decide) (by decide) (by decide)).trans
      ((W6_of_ne m ρ c main_arg4 (by decide)).trans ((after_of_writes_sub hostOps1 _ writes1 (by decide)).trans
        ((W4_of_ne m ρ c main_arg4 (by decide)).trans (W3_keep m ρ c main_arg4 (by decide) (by decide) (by decide)))))]

theorem W11_v91 : W11 m ρ c (Proc.devRef .tc main_v91)
    = agg64 (dense (M := 100000) (K := 128) (N := 64)
        (hidden (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg4)))
      (srcOf (m ((c.tc : Thread nD τ).loc main_arg1))) (dstOf (m ((c.tc : Thread nD τ).loc main_arg1)))
      (normOfEdges (m ((c.tc : Thread nD τ).loc main_arg1))) := by
  refine (h3_v91 (W10 m ρ c)).trans ?_
  rw [W10_v78, W10_of_ne m ρ c main_v50 (by decide), W10_of_ne m ρ c main_v54 (by decide), W10_of_ne m ρ c main_v77 (by decide),
    W9_v50, W9_v54, W9_v77]

theorem W11_v92 : W11 m ρ c (Proc.devRef .tc main_v92)
    = shapeCast S1x64 (m ((c.tc : Thread nD τ).loc main_arg5)) Facts₀.shapeCasts_S64_S1x64 := by
  refine (h3_v92 (W10 m ρ c)).trans ?_
  rw [W10_of_ne m ρ c main_arg5 (by decide), W9_keep m ρ c main_arg5 (by decide) (by decide) (by decide),
    W6_of_ne m ρ c main_arg5 (by decide), show W5 m ρ c (Proc.devRef .tc main_arg5) = _ from after_of_writes_sub hostOps1 _ writes1 (by decide),
    W4_of_ne m ρ c main_arg5 (by decide), W3_keep m ρ c main_arg5 (by decide) (by decide) (by decide)]

/-- THE RESULT ARRAY at the end of the chain is the convolution of the six argument arrays. -/
theorem W12_v93 : W12 m ρ c (Proc.devRef .tc main_v93)
    = kernelOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W12_arr m ρ c 2).trans ((final3 (V11 m ρ) c).trans ?_)
  rw [show V11 m ρ c main_v91 = _ from W11_v91 m ρ c, show V11 m ρ c main_v92 = _ from W11_v92 m ρ c]
  rfl

end Cert.KernelIdeal.ValueChain

end
-- ==== Proof.RefValue.lean ====
/-
  The idealized reference program's result array as one function of its six argument arrays.

  The reference is one line of 125 host operations; its run ends with every buffer at the fold of the operations'
  results over the launch contents. The line is read in nine consecutive chunks, each over ANY contents of the
  buffers: a buffer a chunk writes holds its stage of the convolution (`GcnSpec`) of the buffers the chunk reads,
  every other buffer is kept. Chained from the launch: sources, targets and edge weights from the edge list; the
  first layer (product, aggregation, bias; then the rectifier); sources, targets and weights again; the second
  layer. So the result array is `refOut` of the arguments.
-/
import proofs.«140973_j51015621542485_1_alg».proof.Proof.RefRunP
import proofs.«140973_j51015621542485_1_alg».proof.Proof.GcnSpec
import Idealize.ShloMosaic.Lib.Pipeline.Frame

set_option maxRecDepth 8192
set_option maxHeartbeats 1000000

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo
open Cert.GcnSpec

variable (V : Valuation τ sig (Elt Ideal))

/-! ## What each chunk writes -/

/-- The arrays the operations of chunk 1 write. -/
abbrev wl1 : List (Ref sig .tc) := [main_v0, main_v1, main_v2, main_v3, main_v4, main_v5, main_v6, main_v7, main_cst, main_v8, main_cst_0, main_v9, main_v10, main_v11, main_cst_1, main_v12, main_v13, main_v14, main_cst_2]
theorem writes1 : (ops1 : List (HloOp τ sig (Elt Ideal))).Forall fun op => op.writes ⊆ (wl1.map (Proc.devRef (τ := τ) .tc)).toFinset := by
  simp only [ops1, List.Forall, nullary_writes, unary_writes, binary_writes, ternary_writes, reshape_writes, Finset.singleton_subset_iff, List.mem_toFinset]
  repeat' apply And.intro
  all_goals exact List.mem_map_of_mem (by decide)

/-- The arrays the operations of chunk 2 write. -/
abbrev wl2 : List (Ref sig .tc) := [main_call0_v0, main_call0_v1, main_v15]
theorem writes2 : (ops2 : List (HloOp τ sig (Elt Ideal))).Forall fun op => op.writes ⊆ (wl2.map (Proc.devRef (τ := τ) .tc)).toFinset := by
  simp only [ops2, List.Forall, nullary_writes, unary_writes, binary_writes, ternary_writes, reshape_writes, Finset.singleton_subset_iff, List.mem_toFinset]
  repeat' apply And.intro
  all_goals exact List.mem_map_of_mem (by decide)

/-- The arrays the operations of chunk 3 write. -/
abbrev wl3 : List (Ref sig .tc) := [main_c, main_v16, main_v17, main_c_3, main_v18, main_v19, main_v20, main_v21, main_v22, main_c_4, main_v23, main_v24, main_c_5, main_v25, main_v26, main_v27, main_v28, main_v29, main_v30]
theorem writes3 : (ops3 : List (HloOp τ sig (Elt Ideal))).Forall fun op => op.writes ⊆ (wl3.map (Proc.devRef (τ := τ) .tc)).toFinset := by
  simp only [ops3, List.Forall, nullary_writes, unary_writes, binary_writes, ternary_writes, reshape_writes, Finset.singleton_subset_iff, List.mem_toFinset]
  repeat' apply And.intro
  all_goals exact List.mem_map_of_mem (by decide)

/-- The arrays the operations of chunk 4 write. -/
abbrev wl4 : List (Ref sig .tc) := [main_v31, main_c_6, main_v32, main_v33, main_c_7, main_v34, main_v35, main_v36, main_v37, main_v38, main_v39, main_v40, main_v41, main_cst_8, main_v42, main_v43, main_v44, main_v45, main_v46, main_v47]
theorem writes4 : (ops4 : List (HloOp τ sig (Elt Ideal))).Forall fun op => op.writes ⊆ (wl4.map (Proc.devRef (τ := τ) .tc)).toFinset := by
  simp only [ops4, List.Forall, nullary_writes, unary_writes, binary_writes, ternary_writes, reshape_writes, Finset.singleton_subset_iff, List.mem_toFinset]
  repeat' apply And.intro
  all_goals exact List.mem_map_of_mem (by decide)

/-- The arrays the operations of chunk 5 write. -/
abbrev wl5 : List (Ref sig .tc) := [main_call1_cst, main_call1_v0, main_v48]
theorem writes5 : (ops5 : List (HloOp τ sig (Elt Ideal))).Forall fun op => op.writes ⊆ (wl5.map (Proc.devRef (τ := τ) .tc)).toFinset := by
  simp only [ops5, List.Forall, nullary_writes, unary_writes, binary_writes, ternary_writes, reshape_writes, Finset.singleton_subset_iff, List.mem_toFinset]
  repeat' apply And.intro
  all_goals exact List.mem_map_of_mem (by decide)

/-- The arrays the operations of chunk 6 write. -/
abbrev wl6 : List (Ref sig .tc) := [main_v49, main_v50, main_v51, main_v52, main_v53, main_v54, main_v55, main_v56, main_cst_9, main_v57, main_cst_10, main_v58, main_v59, main_v60, main_cst_11, main_v61, main_v62, main_v63, main_cst_12]
theorem writes6 : (ops6 : List (HloOp τ sig (Elt Ideal))).Forall fun op => op.writes ⊆ (wl6.map (Proc.devRef (τ := τ) .tc)).toFinset := by
  simp only [ops6, List.Forall, nullary_writes, unary_writes, binary_writes, ternary_writes, reshape_writes, Finset.singleton_subset_iff, List.mem_toFinset]
  repeat' apply And.intro
  all_goals exact List.mem_map_of_mem (by decide)

/-- The arrays the operations of chunk 7 write. -/
abbrev wl7 : List (Ref sig .tc) := [main_call2_v0, main_call2_v1, main_v64]
theorem writes7 : (ops7 : List (HloOp τ sig (Elt Ideal))).Forall fun op => op.writes ⊆ (wl7.map (Proc.devRef (τ := τ) .tc)).toFinset := by
  simp only [ops7, List.Forall, nullary_writes, unary_writes, binary_writes, ternary_writes, reshape_writes, Finset.singleton_subset_iff, List.mem_toFinset]
  repeat' apply And.intro
  all_goals exact List.mem_map_of_mem (by decide)

/-- The arrays the operations of chunk 8 write. -/
abbrev wl8 : List (Ref sig .tc) := [main_c_13, main_v65, main_v66, main_c_14, main_v67, main_v68, main_v69, main_v70, main_v71, main_c_15, main_v72, main_v73, main_c_16, main_v74, main_v75, main_v76, main_v77, main_v78, main_v79]
theorem writes8 : (ops8 : List (HloOp τ sig (Elt Ideal))).Forall fun op => op.writes ⊆ (wl8.map (Proc.devRef (τ := τ) .tc)).toFinset := by
  simp only [ops8, List.Forall, nullary_writes, unary_writes, binary_writes, ternary_writes, reshape_writes, Finset.singleton_subset_iff, List.mem_toFinset]
  repeat' apply And.intro
  all_goals exact List.mem_map_of_mem (by decide)

/-- The arrays the operations of chunk 9 write. -/
abbrev wl9 : List (Ref sig .tc) := [main_v80, main_c_17, main_v81, main_v82, main_c_18, main_v83, main_v84, main_v85, main_v86, main_v87, main_v88, main_v89, main_v90, main_cst_19, main_v91, main_v92, main_v93, main_v94, main_v95, main_v96]
theorem writes9 : (ops9 : List (HloOp τ sig (Elt Ideal))).Forall fun op => op.writes ⊆ (wl9.map (Proc.devRef (τ := τ) .tc)).toFinset := by
  simp only [ops9, List.Forall, nullary_writes, unary_writes, binary_writes, ternary_writes, reshape_writes, Finset.singleton_subset_iff, List.mem_toFinset]
  repeat' apply And.intro
  all_goals exact List.mem_map_of_mem (by decide)

/-! ## The chunks, one at a time -/

theorem c1_v3 : after (ops1 (F := Ideal)) V (Proc.devRef .tc main_v3) = srcOf (V (Proc.devRef .tc main_arg1)) := by
  simp only [ops1]; after_results; rfl
theorem c1_v7 : after (ops1 (F := Ideal)) V (Proc.devRef .tc main_v7) = dstOf (V (Proc.devRef .tc main_arg1)) := by
  simp only [ops1]; after_results; rfl
theorem c1_v13 : after (ops1 (F := Ideal)) V (Proc.devRef .tc main_v13) = degPos (degOf (dstOf (V (Proc.devRef .tc main_arg1)))) := by
  simp only [ops1]; after_results; rfl
theorem c1_v14 : after (ops1 (F := Ideal)) V (Proc.devRef .tc main_v14) = Host.rsqrt (F := Ideal) (degOf (dstOf (V (Proc.devRef .tc main_arg1)))) := by
  simp only [ops1]; after_results; rfl
theorem c1_cst_2 : after (ops1 (F := Ideal)) V (Proc.devRef .tc main_cst_2) = constant (F := Ideal) S_ .f32 0x00000000#32 := by
  simp only [ops1]; after_results

theorem c2_v15 : after (ops2 (F := Ideal)) V (Proc.devRef .tc main_v15)
    = dinvOf (V (Proc.devRef .tc main_v13)) (V (Proc.devRef .tc main_v14)) (V (Proc.devRef .tc main_cst_2)) := by
  simp only [ops2]; after_results; rfl

theorem c3_v30 : after (ops3 (F := Ideal)) V (Proc.devRef .tc main_v30)
    = normOf (V (Proc.devRef .tc main_v15)) (V (Proc.devRef .tc main_v3)) (V (Proc.devRef .tc main_v7)) := by
  simp only [ops3]; after_results_simp; rfl

/-- The first layer before its rectifier, as the host spells it: product, aggregation, the bias broadcast over the rows. -/
def preR (x : FVec Ideal S100000x128 .f32) (W1 : FVec Ideal S128x128 .f32) (b1 : FVec Ideal S128 .f32)
    (s d : EdgeIdx) (n : EdgeF) : FVec Ideal S100000x128 .f32 :=
  addf (agg128 (Host.dotGeneral (F := Ideal) dot_S100000x128_S128x128_S100000x128_1_0_0_1_n_n none x W1) s d n)
    (broadcastInDim S100000x128 ![0, 1] Facts₀.bcast_S1x128_S100000x128_0_1 (broadcastInDim S1x128 ![1] Facts₀.bcast_S128_S1x128_1 b1))

/-- The rectifier as the host spells it: the maximum with a splat zero. -/
def reluR (v : FVec Ideal S100000x128 .f32) : FVec Ideal S100000x128 .f32 :=
  maximumf v (broadcastInDim S100000x128 ![] Facts₀.bcast_S_S100000x128 (constant (F := Ideal) S_ .f32 0x00000000#32))

theorem c4_v47 : after (ops4 (F := Ideal)) V (Proc.devRef .tc main_v47)
    = preR (V (Proc.devRef .tc main_arg0)) (V (Proc.devRef .tc main_arg2)) (V (Proc.devRef .tc main_arg3))
        (V (Proc.devRef .tc main_v3)) (V (Proc.devRef .tc main_v7)) (V (Proc.devRef .tc main_v30)) := by
  simp only [ops4]; after_results_simp; rfl

theorem c5_v48 : after (ops5 (F := Ideal)) V (Proc.devRef .tc main_v48) = reluR (V (Proc.devRef .tc main_v47)) := by
  simp only [ops5]; after_results; rfl

theorem c6_v52 : after (ops6 (F := Ideal)) V (Proc.devRef .tc main_v52) = srcOf (V (Proc.devRef .tc main_arg1)) := by
  simp only [ops6]; after_results; rfl
theorem c6_v56 : after (ops6 (F := Ideal)) V (Proc.devRef .tc main_v56) = dstOf (V (Proc.devRef .tc main_arg1)) := by
  simp only [ops6]; after_results; rfl
theorem c6_v62 : after (ops6 (F := Ideal)) V (Proc.devRef .tc main_v62) = degPos (degOf (dstOf (V (Proc.devRef .tc main_arg1)))) := by
  simp only [ops6]; after_results; rfl
theorem c6_v63 : after (ops6 (F := Ideal)) V (Proc.devRef .tc main_v63) = Host.rsqrt (F := Ideal) (degOf (dstOf (V (Proc.devRef .tc main_arg1)))) := by
  simp only [ops6]; after_results; rfl
theorem c6_cst_12 : after (ops6 (F := Ideal)) V (Proc.devRef .tc main_cst_12) = constant (F := Ideal) S_ .f32 0x00000000#32 := by
  simp only [ops6]; after_results

theorem c7_v64 : after (ops7 (F := Ideal)) V (Proc.devRef .tc main_v64)
    = dinvOf (V (Proc.devRef .tc main_v62)) (V (Proc.devRef .tc main_v63)) (V (Proc.devRef .tc main_cst_12)) := by
  simp only [ops7]; after_results; rfl

theorem c8_v79 : after (ops8 (F := Ideal)) V (Proc.devRef .tc main_v79)
    = normOf (V (Proc.devRef .tc main_v64)) (V (Proc.devRef .tc main_v52)) (V (Proc.devRef .tc main_v56)) := by
  simp only [ops8]; after_results_simp; rfl

/-- The second layer as the host spells it. -/
def outR (h : FVec Ideal S100000x128 .f32) (W2 : FVec Ideal S128x64 .f32) (b2 : FVec Ideal S64 .f32)
    (s d : EdgeIdx) (n : EdgeF) : FVec Ideal S100000x64 .f32 :=
  addf (agg64 (Host.dotGeneral (F := Ideal) dot_S100000x128_S128x64_S100000x64_1_0_0_1_n_n none h W2) s d n)
    (broadcastInDim S100000x64 ![0, 1] Facts₀.bcast_S1x64_S100000x64_0_1 (broadcastInDim S1x64 ![1] Facts₀.bcast_S64_S1x64_1 b2))

theorem c9_v96 : after (ops9 (F := Ideal)) V (Proc.devRef .tc main_v96)
    = outR (V (Proc.devRef .tc main_v48)) (V (Proc.devRef .tc main_arg4)) (V (Proc.devRef .tc main_arg5))
        (V (Proc.devRef .tc main_v52)) (V (Proc.devRef .tc main_v56)) (V (Proc.devRef .tc main_v79)) := by
  simp only [ops9]; after_results_simp; rfl

/-! ## The chain from the launch -/

variable (m : (ℓ : Loc nD τ sig) → Buf (Elt Ideal) ℓ) (c : Dev nD)

/-- The buffer contents after the first `k` chunks. -/
abbrev U0 : Valuation τ sig (Elt Ideal) := launchContents m c
abbrev U1 : Valuation τ sig (Elt Ideal) := after ops1 (U0 m c)
abbrev U2 : Valuation τ sig (Elt Ideal) := after ops2 (U1 m c)
abbrev U3 : Valuation τ sig (Elt Ideal) := after ops3 (U2 m c)
abbrev U4 : Valuation τ sig (Elt Ideal) := after ops4 (U3 m c)
abbrev U5 : Valuation τ sig (Elt Ideal) := after ops5 (U4 m c)
abbrev U6 : Valuation τ sig (Elt Ideal) := after ops6 (U5 m c)
abbrev U7 : Valuation τ sig (Elt Ideal) := after ops7 (U6 m c)
abbrev U8 : Valuation τ sig (Elt Ideal) := after ops8 (U7 m c)
abbrev U9 : Valuation τ sig (Elt Ideal) := after ops9 (U8 m c)

/-- The whole line is the nine chunks one after the other. -/
theorem after_ops : after (ops (F := Ideal)) (launchContents m c) = U9 m c := by
  simp only [ops, after_append]

theorem U3_keep (r : Ref sig .tc) (h1 : r ∉ wl1) (h2 : r ∉ wl2) (h3 : r ∉ wl3) :
    U3 m c (Proc.devRef .tc r) = m ((c.tc : Thread nD τ).loc r) :=
  (after_of_writes_sub ops3 _ writes3 h3).trans ((after_of_writes_sub ops2 _ writes2 h2).trans (after_of_writes_sub ops1 _ writes1 h1))

theorem U5_keep (r : Ref sig .tc) (h1 : r ∉ wl1) (h2 : r ∉ wl2) (h3 : r ∉ wl3) (h4 : r ∉ wl4) (h5 : r ∉ wl5) :
    U5 m c (Proc.devRef .tc r) = m ((c.tc : Thread nD τ).loc r) :=
  (after_of_writes_sub ops5 _ writes5 h5).trans ((after_of_writes_sub ops4 _ writes4 h4).trans (U3_keep m c r h1 h2 h3))

theorem U8_keep (r : Ref sig .tc) (h6 : r ∉ wl6) (h7 : r ∉ wl7) (h8 : r ∉ wl8) :
    U8 m c (Proc.devRef .tc r) = U5 m c (Proc.devRef .tc r) :=
  (after_of_writes_sub ops8 _ writes8 h8).trans ((after_of_writes_sub ops7 _ writes7 h7).trans (after_of_writes_sub ops6 _ writes6 h6))

theorem U3_v3 : U3 m c (Proc.devRef .tc main_v3) = srcOf (m ((c.tc : Thread nD τ).loc main_arg1)) :=
  (after_of_writes_sub ops3 _ writes3 (by decide)).trans ((after_of_writes_sub ops2 _ writes2 (by decide)).trans (c1_v3 (U0 m c)))

theorem U3_v7 : U3 m c (Proc.devRef .tc main_v7) = dstOf (m ((c.tc : Thread nD τ).loc main_arg1)) :=
  (after_of_writes_sub ops3 _ writes3 (by decide)).trans ((after_of_writes_sub ops2 _ writes2 (by decide)).trans (c1_v7 (U0 m c)))

theorem U3_v30 : U3 m c (Proc.devRef .tc main_v30) = normOfEdges (m ((c.tc : Thread nD τ).loc main_arg1)) := by
  refine (c3_v30 (U2 m c)).trans ?_
  rw [show U2 m c (Proc.devRef .tc main_v15) = _ from c2_v15 (U1 m c),
    show U1 m c (Proc.devRef .tc main_v13) = _ from c1_v13 (U0 m c),
    show U1 m c (Proc.devRef .tc main_v14) = _ from c1_v14 (U0 m c),
    show U1 m c (Proc.devRef .tc main_cst_2) = _ from c1_cst_2 (U0 m c),
    show U2 m c (Proc.devRef .tc main_v3) = _ from (after_of_writes_sub ops2 _ writes2 (by decide)).trans (c1_v3 (U0 m c)),
    show U2 m c (Proc.devRef .tc main_v7) = _ from (after_of_writes_sub ops2 _ writes2 (by decide)).trans (c1_v7 (U0 m c))]
  rfl

/-- The first layer's output as the host spells it. -/
def hiddenR (x : FVec Ideal S100000x128 .f32) (W1 : FVec Ideal S128x128 .f32) (b1 : FVec Ideal S128 .f32)
    (s d : EdgeIdx) (n : EdgeF) : FVec Ideal S100000x128 .f32 :=
  reluR (preR x W1 b1 s d n)

theorem U5_v48 : U5 m c (Proc.devRef .tc main_v48)
    = hiddenR (m ((c.tc : Thread nD τ).loc main_arg0)) (m ((c.tc : Thread nD τ).loc main_arg2)) (m ((c.tc : Thread nD τ).loc main_arg3))
        (srcOf (m ((c.tc : Thread nD τ).loc main_arg1))) (dstOf (m ((c.tc : Thread nD τ).loc main_arg1))) (normOfEdges (m ((c.tc : Thread nD τ).loc main_arg1))) := by
  refine (c5_v48 (U4 m c)).trans ?_
  rw [show U4 m c (Proc.devRef .tc main_v47) = _ from c4_v47 (U3 m c),
    U3_keep m c main_arg0 (by decide) (by decide) (by decide), U3_keep m c main_arg2 (by decide) (by decide) (by decide),
    U3_keep m c main_arg3 (by decide) (by decide) (by decide), U3_v3, U3_v7, U3_v30]
  rfl

theorem U8_v52 : U8 m c (Proc.devRef .tc main_v52) = srcOf (m ((c.tc : Thread nD τ).loc main_arg1)) :=
  (after_of_writes_sub ops8 _ writes8 (by decide)).trans ((after_of_writes_sub ops7 _ writes7 (by decide)).trans
    ((c6_v52 (U5 m c)).trans (congrArg srcOf (U5_keep m c main_arg1 (by decide) (by decide) (by decide) (by decide) (by decide)))))

theorem U8_v56 : U8 m c (Proc.devRef .tc main_v56) = dstOf (m ((c.tc : Thread nD τ).loc main_arg1)) :=
  (after_of_writes_sub ops8 _ writes8 (by decide)).trans ((after_of_writes_sub ops7 _ writes7 (by decide)).trans
    ((c6_v56 (U5 m c)).trans (congrArg dstOf (U5_keep m c main_arg1 (by decide) (by decide) (by decide) (by decide) (by decide)))))

theorem U8_v79 : U8 m c (Proc.devRef .tc main_v79) = normOfEdges (m ((c.tc : Thread nD τ).loc main_arg1)) := by
  refine (c8_v79 (U7 m c)).trans ?_
  rw [show U7 m c (Proc.devRef .tc main_v64) = _ from c7_v64 (U6 m c),
    show U6 m c (Proc.devRef .tc main_v62) = _ from c6_v62 (U5 m c),
    show U6 m c (Proc.devRef .tc main_v63) = _ from c6_v63 (U5 m c),
    show U6 m c (Proc.devRef .tc main_cst_12) = _ from c6_cst_12 (U5 m c),
    show U7 m c (Proc.devRef .tc main_v52) = _ from (after_of_writes_sub ops7 _ writes7 (by decide)).trans (c6_v52 (U5 m c)),
    show U7 m c (Proc.devRef .tc main_v56) = _ from (after_of_writes_sub ops7 _ writes7 (by decide)).trans (c6_v56 (U5 m c)),
    U5_keep m c main_arg1 (by decide) (by decide) (by decide) (by decide) (by decide)]
  rfl

/-- The convolution as the reference program computes it. -/
def refOut (x : FVec Ideal S100000x128 .f32) (ei : IVec S2x1600000 32) (W1 : FVec Ideal S128x128 .f32) (b1 : FVec Ideal S128 .f32)
    (W2 : FVec Ideal S128x64 .f32) (b2 : FVec Ideal S64 .f32) : FVec Ideal S100000x64 .f32 :=
  outR (hiddenR x W1 b1 (srcOf ei) (dstOf ei) (normOfEdges ei)) W2 b2 (srcOf ei) (dstOf ei) (normOfEdges ei)

/-- THE RESULT ARRAY at the end of the line is the convolution of the six argument arrays. -/
theorem result_eq : after (ops (F := Ideal)) (launchContents m c) (Proc.devRef .tc main_v96)
    = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  refine (c9_v96 (U8 m c)).trans ?_
  rw [U8_keep m c main_v48 (by decide) (by decide) (by decide), U5_v48,
    U8_keep m c main_arg4 (by decide) (by decide) (by decide), U5_keep m c main_arg4 (by decide) (by decide) (by decide) (by decide) (by decide),
    U8_keep m c main_arg5 (by decide) (by decide) (by decide), U5_keep m c main_arg5 (by decide) (by decide) (by decide) (by decide) (by decide),
    U8_v52, U8_v56, U8_v79]
  rfl

/-- An argument array ends as launched: no operation writes it. -/
theorem arg_kept (r : Ref sig .tc) (h1 : r ∉ wl1) (h2 : r ∉ wl2) (h3 : r ∉ wl3) (h4 : r ∉ wl4) (h5 : r ∉ wl5) (h6 : r ∉ wl6)
    (h7 : r ∉ wl7) (h8 : r ∉ wl8) (h9 : r ∉ wl9) :
    after (ops (F := Ideal)) (launchContents m c) (Proc.devRef .tc r) = m ((c.tc : Thread nD τ).loc r) := by
  rw [after_ops]
  exact (after_of_writes_sub ops9 _ writes9 h9).trans ((U8_keep m c r h6 h7 h8).trans (U5_keep m c r h1 h2 h3 h4 h5))

end Cert.ReferenceIdeal.RefValue

end
-- ==== Proof.lean ====
/-
  A two-layer graph convolution: a tiled kernel program against its host reference, on the extended reals.

  Both programs compute out = aggregate ((relu (aggregate (x·W1) + b1))·W2) + b2 over the same edge list, the
  aggregation a gather of rows by the edges' sources, a scaling by the symmetric degree normalization, and a
  scatter-add by the edges' targets. The edge-side stages are the same host operations in both. They differ in the
  dense stages: the kernel program runs each matrix product and each bias stage as a region tiled over 20 blocks of
  5000 rows (the product on operands narrowed to a shorter float format first, which changes nothing on the extended
  reals), with the bias reshaped to one row; the reference runs one whole product and adds the bias through
  broadcasts. Since every dense stage treats rows independently, the tiles are the rows of the whole stage
  (`KernelRegions`); the bias row is the same row either way (`LibBiasRows.castRow_eq`). No law of real arithmetic
  beyond 0 + x = x is used, so the two results agree at the infinities too and finiteness of the inputs is never
  opened.

  The kernel program's run names every buffer at the end of its chain of stretches and regions (`KernelRunAll`),
  and the chain is walked to the result (`KernelValue`); the reference's run is the fold of its 125 operations
  (`RefRunP`), read in eight chunks (`RefValue`).
-/
import proofs.«140973_j51015621542485_1_alg».proof.Defs
import proofs.«140973_j51015621542485_1_alg».proof.Proof.Gen.Kernel
import proofs.«140973_j51015621542485_1_alg».proof.Proof.Gen.Kernel.Skeleton
import proofs.«140973_j51015621542485_1_alg».proof.Proof.Gen.Kernel.Launch
import proofs.«140973_j51015621542485_1_alg».proof.Proof.Gen.Kernel.Points
import proofs.«140973_j51015621542485_1_alg».proof.Proof.Gen.Kernel.Frame
import proofs.«140973_j51015621542485_1_alg».proof.Proof.Gen.KernelIdeal
import proofs.«140973_j51015621542485_1_alg».proof.Proof.Gen.KernelIdeal.Skeleton
import proofs.«140973_j51015621542485_1_alg».proof.Proof.Gen.KernelIdeal.Launch
import proofs.«140973_j51015621542485_1_alg».proof.Proof.Gen.KernelIdeal.Points
import proofs.«140973_j51015621542485_1_alg».proof.Proof.Gen.KernelIdeal.Frame
import proofs.«140973_j51015621542485_1_alg».proof.Proof.Gen.ReferenceIdeal
import proofs.«140973_j51015621542485_1_alg».proof.Proof.Gen.Pre_finite_inputs
import proofs.«140973_j51015621542485_1_alg».proof.Proof.KernelRunAll
import proofs.«140973_j51015621542485_1_alg».proof.Proof.KernelValue
import proofs.«140973_j51015621542485_1_alg».proof.Proof.RefRunP
import proofs.«140973_j51015621542485_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Cert.GcnSpec Cert.LibBiasRows Cert.GraphLayer

/-! ## The two spellings of the dense stages are one function -/

/-- The first layer: the host's product, broadcasts and maximum are the whole-array stages the tiles compute. -/
theorem hidden_eq (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32) :
    Cert.ReferenceIdeal.RefValue.hiddenR x W1 b1 (srcOf ei) (dstOf ei) (normOfEdges ei)
      = Cert.KernelIdeal.ValueChain.hidden x ei W1 b1 :=
  (hostBiasRelu (M := 100000) (N := 128) _ _ _ _).trans
    (congrArg (biasRelu (M := 100000) (N := 128) _) (castRow_eq (N := 128) b1 _ _).symm)

/-- The whole convolution, the reference's spelling against the kernel program's. -/
theorem out_eq (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32)
    (W2 : FVec Ideal Cert.ReferenceIdeal.S128x64 .f32) (b2 : FVec Ideal Cert.ReferenceIdeal.S64 .f32) :
    Cert.ReferenceIdeal.RefValue.refOut x ei W1 b1 W2 b2 = Cert.KernelIdeal.ValueChain.kernelOut x ei W1 b1 W2 b2 := by
  unfold Cert.ReferenceIdeal.RefValue.refOut Cert.ReferenceIdeal.RefValue.outR
  rw [hidden_eq]
  exact (hostBiasOnly (M := 100000) (N := 64) _ _ _).trans
    (congrArg (biasOnly (M := 100000) (N := 64) _) (castRow_eq (N := 64) b2 _ _).symm)

/-! ## The claims -/

theorem frame_k : Cert.frame_Kernel := fun m ρ _ => Cert.Kernel.Gen.frame m ρ

theorem frame_ki : Cert.frame_KernelIdeal := fun m ρ _ => Cert.KernelIdeal.Gen.frame m ρ

/-- The reference writes none of its arguments: each ends at the fold of the operations at a buffer none of them
    writes. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.arg_kept m c _ (by decide) (by decide) (by decide) (by decide) (by decide) (by decide) (by decide) (by decide) (by decide)),
       (h c Cert.ReferenceIdeal.main_arg1).trans (Cert.ReferenceIdeal.RefValue.arg_kept m c _ (by decide) (by decide) (by decide) (by decide) (by decide) (by decide) (by decide) (by decide) (by decide)),
       (h c Cert.ReferenceIdeal.main_arg2).trans (Cert.ReferenceIdeal.RefValue.arg_kept m c _ (by decide) (by decide) (by decide) (by decide) (by decide) (by decide) (by decide) (by decide) (by decide)),
       (h c Cert.ReferenceIdeal.main_arg3).trans (Cert.ReferenceIdeal.RefValue.arg_kept m c _ (by decide) (by decide) (by decide) (by decide) (by decide) (by decide) (by decide) (by decide) (by decide)),
       (h c Cert.ReferenceIdeal.main_arg4).trans (Cert.ReferenceIdeal.RefValue.arg_kept m c _ (by decide) (by decide) (by decide) (by decide) (by decide) (by decide) (by decide) (by decide) (by decide)),
       (h c Cert.ReferenceIdeal.main_arg5).trans (Cert.ReferenceIdeal.RefValue.arg_kept m c _ (by decide) (by decide) (by decide) (by decide) (by decide) (by decide) (by decide) (by decide) (by decide))⟩)
    (Cert.ReferenceIdeal.ValueP.run_all (F := Ideal) m ρ)

/-- The ideal pass rewrote nothing: the idealized kernel program is the program's own text read on the extended reals. -/
theorem preserves : Cert.preserves_Kernel_KernelIdeal := trivial

/-- From memories agreeing on the arguments both programs end with the convolution of the arguments in their result
    arrays: the kernel program's chain read at its result, the reference's fold read at its own, and the two
    spellings one function. -/
theorem algebraic : Cert.algebraic_KernelIdeal_ReferenceIdeal := by
  intro m ρ m' ρ' _ hagree
  refine ⟨fun c => Cert.KernelIdeal.ValueChain.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Gen.mem_uc Cert.KernelIdeal.main_v93 (by decide))).trans (Cert.KernelIdeal.ValueChain.W12_v93 m ρ c),
       (h c _ (Cert.KernelIdeal.Gen.mem_uc Cert.KernelIdeal.main_arg0 (by decide))).trans (Cert.KernelIdeal.Gen.W12_main_arg0 m ρ c),
       (h c _ (Cert.KernelIdeal.Gen.mem_uc Cert.KernelIdeal.main_arg1 (by decide))).trans (Cert.KernelIdeal.Gen.W12_main_arg1 m ρ c),
       (h c _ (Cert.KernelIdeal.Gen.mem_uc Cert.KernelIdeal.main_arg2 (by decide))).trans (Cert.KernelIdeal.Gen.W12_main_arg2 m ρ c),
       (h c _ (Cert.KernelIdeal.Gen.mem_uc Cert.KernelIdeal.main_arg3 (by decide))).trans (Cert.KernelIdeal.Gen.W12_main_arg3 m ρ c),
       (h c _ (Cert.KernelIdeal.Gen.mem_uc Cert.KernelIdeal.main_arg4 (by decide))).trans (Cert.KernelIdeal.Gen.W12_main_arg4 m ρ c),
       (h c _ (Cert.KernelIdeal.Gen.mem_uc Cert.KernelIdeal.main_arg5 (by decide))).trans (Cert.KernelIdeal.Gen.W12_main_arg5 m ρ c)⟩)
      (Cert.KernelIdeal.GenP.run_all (F := Ideal) m ρ)
  · refine (θ_run Cert.ReferenceIdeal.defs _ _).mono (fun r h c => ⟨?_,
       (h c Cert.ReferenceIdeal.main_arg0).trans (Cert.ReferenceIdeal.RefValue.arg_kept m' c _ (by decide) (by decide) (by decide) (by decide) (by decide) (by decide) (by decide) (by decide) (by decide)),
       (h c Cert.ReferenceIdeal.main_arg1).trans (Cert.ReferenceIdeal.RefValue.arg_kept m' c _ (by decide) (by decide) (by decide) (by decide) (by decide) (by decide) (by decide) (by decide) (by decide)),
       (h c Cert.ReferenceIdeal.main_arg2).trans (Cert.ReferenceIdeal.RefValue.arg_kept m' c _ (by decide) (by decide) (by decide) (by decide) (by decide) (by decide) (by decide) (by decide) (by decide)),
       (h c Cert.ReferenceIdeal.main_arg3).trans (Cert.ReferenceIdeal.RefValue.arg_kept m' c _ (by decide) (by decide) (by decide) (by decide) (by decide) (by decide) (by decide) (by decide) (by decide)),
       (h c Cert.ReferenceIdeal.main_arg4).trans (Cert.ReferenceIdeal.RefValue.arg_kept m' c _ (by decide) (by decide) (by decide) (by decide) (by decide) (by decide) (by decide) (by decide) (by decide)),
       (h c Cert.ReferenceIdeal.main_arg5).trans (Cert.ReferenceIdeal.RefValue.arg_kept m' c _ (by decide) (by decide) (by decide) (by decide) (by decide) (by decide) (by decide) (by decide) (by decide))⟩)
      (Cert.ReferenceIdeal.ValueP.run_all (F := Ideal) m' ρ')
    refine (h c Cert.ReferenceIdeal.main_v96).trans ((Cert.ReferenceIdeal.RefValue.result_eq m' c).trans ?_)
    obtain ⟨a0, a1, a2, a3, a4, a5⟩ := hagree c
    rw [a0, a1, a2, a3, a4, a5]
    exact out_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
